-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1000000 : Shape := ⟨2, ![2, 1000000]⟩
abbrev S1000000 : Shape := ⟨1, ![1000000]⟩
abbrev S100000x64 : Shape := ⟨2, ![100000, 64]⟩
abbrev S64x64 : Shape := ⟨2, ![64, 64]⟩
abbrev S64 : Shape := ⟨1, ![64]⟩
abbrev S_ : Shape := ⟨0, ![]⟩

class Facts : Prop where
  bcast_S_S1000000 : S_.BroadcastsInDim S1000000 (![] : Fin 0 → Fin S1000000.rank)
  reducesTo_S1000000_S_d0 : S1000000.ReducesTo [0] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S64x64 .f32) (main_arg7 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : IVec S2x1000000 32) (main_arg1 : FVec F S1000000 .f32) (main_arg2 : FVec F S1000000 .f32) (main_arg3 : FVec F S100000x64 .f32) (main_arg4 : FVec F S64x64 .f32) (main_arg5 : FVec F S64 .f32) (main_arg6 : FVec F S64x64 .f32) (main_arg7 : FVec F S64 .f32) : IVec S_ 1 :=
  let main_v0 : FVec F S1000000 .f32 := Host.absf main_arg1
  let main_cst : FVec F S_ .f32 := constant S_ .f32 0x7F800000#32
  let main_v1 : FVec F S1000000 .f32 := broadcastInDim S1000000 ![] bcast_S_S1000000 main_cst
  let main_v2 : IVec S1000000 1 := cmpf .olt main_v0 main_v1
  let main_c : IVec S_ 1 := constantI S_ 1 1#1
  let main_v3 : IVec S_ 1 := (fun x v => Host.reduce IntOp.andi x v reducesTo_S1000000_S_d0 h_S_) main_v2 main_c
  let main_v4 : FVec F S1000000 .f32 := Host.absf main_arg2
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_v9 : FVec F S100000x64 .f32 := Host.absf main_arg3
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S2x1000000 : Shape := ⟨2, ![2, 1000000]⟩
abbrev S1000000 : Shape := ⟨1, ![1000000]⟩
abbrev S100000x64 : Shape := ⟨2, ![100000, 64]⟩
abbrev S64x64 : Shape := ⟨2, ![64, 64]⟩
abbrev S64 : Shape := ⟨1, ![64]⟩
abbrev S1x1000000 : Shape := ⟨2, ![1, 1000000]⟩
abbrev S_ : Shape := ⟨0, ![]⟩
abbrev S1000000x1 : Shape := ⟨2, ![1000000, 1]⟩
abbrev S1000000x64 : Shape := ⟨2, ![1000000, 64]⟩
abbrev S1x64 : Shape := ⟨2, ![1, 64]⟩
abbrev S10000x64 : Shape := ⟨2, ![10000, 64]⟩

abbrev nBuf : Space → Nat
  | .hbm => 33
  | .vmem => 10
  | .smem => 0
  | _ => 0

abbrev bufTy : (tb : Table) → Fin (tcTables nBuf tb) → BufTy
  | .hbm, ⟨0, _⟩ => ⟨S2x1000000, .i32⟩
  | .hbm, ⟨1, _⟩ => ⟨S1000000, .f32⟩
  | .hbm, ⟨2, _⟩ => ⟨S1000000, .f32⟩
  | .hbm, ⟨3, _⟩ => ⟨S100000x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1x1000000, .i32⟩
  | .hbm, ⟨9, _⟩ => ⟨S1000000, .i32⟩
  | .hbm, ⟨10, _⟩ => ⟨S1x1000000, .i32⟩
  | .hbm, ⟨11, _⟩ => ⟨S1000000, .i32⟩
  | .hbm, ⟨12, _⟩ => ⟨S1000000, .f32⟩
  | .hbm, ⟨13, _⟩ => ⟨S_, .i32⟩
  | .hbm, ⟨14, _⟩ => ⟨S1000000, .i32⟩
  | .hbm, ⟨15, _⟩ => ⟨S1000000, .i1⟩
  | .hbm, ⟨16, _⟩ => ⟨S_, .i32⟩
  | .hbm, ⟨17, _⟩ => ⟨S1000000, .i32⟩
  | .hbm, ⟨18, _⟩ => ⟨S1000000, .i32⟩
  | .hbm, ⟨19, _⟩ => ⟨S1000000, .i32⟩
  | .hbm, ⟨20, _⟩ => ⟨S1000000x1, .i32⟩
  | .hbm, ⟨21, _⟩ => ⟨S1000000x64, .f32⟩
  | .hbm, ⟨22, _⟩ => ⟨S1000000x1, .f32⟩
  | .hbm, ⟨23, _⟩ => ⟨S1000000x64, .f32⟩
  | .hbm, ⟨24, _⟩ => ⟨S1000000x64, .f32⟩
  | .hbm, ⟨25, _⟩ => ⟨S_, .f32⟩
  | .hbm, ⟨26, _⟩ => ⟨S100000x64, .f32⟩
  | .hbm, ⟨27, _⟩ => ⟨S1000000x1, .i32⟩
  | .hbm, ⟨28, _⟩ => ⟨S100000x64, .f32⟩
  | .hbm, ⟨29, _⟩ => ⟨S1x64, .f32⟩
  | .hbm, ⟨30, _⟩ => ⟨S1x64, .f32⟩
  | .hbm, ⟨31, _⟩ => ⟨S100000x64, .f32⟩
  | .hbm, ⟨32, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | _, _ => ⟨S2x1000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S10000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S100000x64.size a
  hwx0_6 : ∀ i : grid0.Coords, EltTy.bits .f32 = 32 ∨ (Rect.block (s := S100000x64) S10000x64.size (cc0_transform_6 i) (hinb0_6 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v17) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20_0) S10000x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v20_1) S10000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2x1000000 : Shape := ⟨2, ![2, 1000000]⟩
abbrev S1000000 : Shape := ⟨1, ![1000000]⟩
abbrev S100000x64 : Shape := ⟨2, ![100000, 64]⟩
abbrev S64x64 : Shape := ⟨2, ![64, 64]⟩
abbrev S64 : Shape := ⟨1, ![64]⟩
abbrev S1x1000000 : Shape := ⟨2, ![1, 1000000]⟩
abbrev S_ : Shape := ⟨0, ![]⟩
abbrev S1000000x1 : Shape := ⟨2, ![1000000, 1]⟩
abbrev S1000000x64 : Shape := ⟨2, ![1000000, 64]⟩
abbrev S1x64 : Shape := ⟨2, ![1, 64]⟩

abbrev nBuf : Space → Nat
  | .hbm => 54
  | .vmem => 0
  | .smem => 0
  | _ => 0

abbrev bufTy : (tb : Table) → Fin (tcTables nBuf tb) → BufTy
  | .hbm, ⟨0, _⟩ => ⟨S2x1000000, .i32⟩
  | .hbm, ⟨1, _⟩ => ⟨S1000000, .f32⟩
  | .hbm, ⟨2, _⟩ => ⟨S1000000, .f32⟩
  | .hbm, ⟨3, _⟩ => ⟨S100000x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1x1000000, .i32⟩
  | .hbm, ⟨9, _⟩ => ⟨S1000000, .i32⟩
  | .hbm, ⟨10, _⟩ => ⟨S1x1000000, .i32⟩
  | .hbm, ⟨11, _⟩ => ⟨S1000000, .i32⟩
  | .hbm, ⟨12, _⟩ => ⟨S_, .i32⟩
  | .hbm, ⟨13, _⟩ => ⟨S1000000, .i32⟩
  | .hbm, ⟨14, _⟩ => ⟨S1000000, .i1⟩
  | .hbm, ⟨15, _⟩ => ⟨S_, .i32⟩
  | .hbm, ⟨16, _⟩ => ⟨S1000000, .i32⟩
  | .hbm, ⟨17, _⟩ => ⟨S1000000, .i32⟩
  | .hbm, ⟨18, _⟩ => ⟨S1000000, .i32⟩
  | .hbm, ⟨19, _⟩ => ⟨S1000000x1, .i32⟩
  | .hbm, ⟨20, _⟩ => ⟨S1000000x64, .f32⟩
  | .hbm, ⟨21, _⟩ => ⟨S1000000, .f32⟩
  | .hbm, ⟨22, _⟩ => ⟨S1000000x1, .f32⟩
  | .hbm, ⟨23, _⟩ => ⟨S1000000x64, .f32⟩
  | .hbm, ⟨24, _⟩ => ⟨S1000000x64, .f32⟩
  | .hbm, ⟨25, _⟩ => ⟨S_, .f32⟩
  | .hbm, ⟨26, _⟩ => ⟨S100000x64, .f32⟩
  | .hbm, ⟨27, _⟩ => ⟨S1000000x1, .i32⟩
  | .hbm, ⟨28, _⟩ => ⟨S100000x64, .f32⟩
  | .hbm, ⟨29, _⟩ => ⟨S100000x64, .f32⟩
  | .hbm, ⟨30, _⟩ => ⟨S1x64, .f32⟩
  | .hbm, ⟨31, _⟩ => ⟨S100000x64, .f32⟩
  | .hbm, ⟨32, _⟩ => ⟨S100000x64, .f32⟩
  | .hbm, ⟨33, _⟩ => ⟨S100000x64, .f32⟩
  | .hbm, ⟨34, _⟩ => ⟨S1x64, .f32⟩
  | .hbm, ⟨35, _⟩ => ⟨S100000x64, .f32⟩
  | .hbm, ⟨36, _⟩ => ⟨S100000x64, .f32⟩
  | .hbm, ⟨37, _⟩ => ⟨S_, .f32⟩
  | .hbm, ⟨38, _⟩ => ⟨S100000x64, .f32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S100000x64, .i1⟩
  | .hbm, ⟨43, _⟩ => ⟨S100000x64, .f32⟩
  | .hbm, ⟨44, _⟩ => ⟨S100000x64, .f32⟩
  | .hbm, ⟨45, _⟩ => ⟨S100000x64, .f32⟩
  | .hbm, ⟨46, _⟩ => ⟨S100000x64, .f32⟩
  | .hbm, ⟨47, _⟩ => ⟨S100000x64, .f32⟩
  | .hbm, ⟨48, _⟩ => ⟨S100000x64, .f32⟩
  | .hbm, ⟨49, _⟩ => ⟨S100000x64, .f32⟩
  | .hbm, ⟨50, _⟩ => ⟨S100000x64, .f32⟩
  | .hbm, ⟨51, _⟩ => ⟨S_, .f32⟩
  | .hbm, ⟨52, _⟩ => ⟨S100000x64, .f32⟩
  | .hbm, ⟨53, _⟩ => ⟨S100000x64, .f32⟩
  | _, _ => ⟨S2x1000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call0_cst : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_v26 : Ref sig .tc := ⟨.hbm, 50, rfl⟩
abbrev main_cst_1 : Ref sig .tc := ⟨.hbm, 51, rfl⟩
abbrev main_v27 : Ref sig .tc := ⟨.hbm, 52, rfl⟩
abbrev main_v28 : Ref sig .tc := ⟨.hbm, 53, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x64_S100000x64_1_0_0_1_n_n_wf : DotDims.WF S100000x64 S64x64 S100000x64 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.DenseHeads.lean ====
/-
  Two dense heads over one table of vertex features, as functions on the extended reals.

  A table `p` of 100000 rows of 64 features is multiplied by a 64 × 64 weight matrix `W` and a bias row `b` is
  added: entry (r, c) of the result is `∑ k, p (r, k) · W (k, c) + b c` (`affine`). The first head returns
  that. The second head passes every entry through the softplus `x ↦ max x 0 + log (1 + exp (-|x|))` and adds
  a fixed positive offset (`spread`).

  Two spellings of the softplus occur. Both first test whether `x - 0` differs from itself, which on the
  extended reals never happens, so the branch taken is always `max x 0 + log1p (exp (-|x - 0|))`; one
  spelling negates `|x - 0|`, the other subtracts it from zero. `softplus_host` and `softplus_body` say
  that each spelling is `softplus`, at every extended real, the infinities included: only `x - 0 = x`,
  `0 - y = -y` and the reflexivity of equality are used, no cancellation.
-/
import Idealize.ShloMosaic.PureOps.Ideal
import Idealize.ShloMosaic.PureOps.Ideal.Laws
import Idealize.ShloMosaic.Lib.ValueIdx

noncomputable section

open scoped BigOperators

namespace Cert.DenseHeads

open Idealize.ShloMosaic Idealize.ShloMosaic.ValueIdx

/-- The table's shape: one row per vertex, 64 features. -/
abbrev STable : Shape := ⟨2, ![100000, 64]⟩
/-- A head's weight matrix. -/
abbrev SWeight : Shape := ⟨2, ![64, 64]⟩
/-- A head's bias. -/
abbrev SBias : Shape := ⟨1, ![64]⟩

/-- Row `r` of the table against column `c` of the weights, plus the bias at `c`. -/
def affineAt (p : STable.Idx → EReal) (W : SWeight.Idx → EReal) (b : SBias.Idx → EReal) (r : Fin 100000) (c : Fin 64) : EReal :=
  (∑ k : Fin 64, p (ix2 r k) * W (ix2 k c)) + b (ix1 c)

/-- The first head: `p · W + b`, entry by entry. -/
def affine (p : STable.Idx → EReal) (W : SWeight.Idx → EReal) (b : SBias.Idx → EReal) : STable.Idx → EReal :=
  fun i => affineAt p W b (i 0) (i 1)

/-- `log (1 + eˣ)` in the form that does not overflow: `max x 0 + log (1 + e^(-|x|))`, with `|x|` written
    `max x (-x)`. -/
def softplus (x : EReal) : EReal := max x 0 + Ideal.log1p (Ideal.exp (-(max x (-x))))

/-- The offset that keeps the second head away from zero: the binary32 number nearest to 10⁻⁷, the same word in
    both programs, so its value is never needed. -/
def offset : EReal := Ideal.ofBits .f32 0x33D6BF95#32

/-- The second head: the softplus of `p · W + b`, plus the offset. -/
def spread (p : STable.Idx → EReal) (W : SWeight.Idx → EReal) (b : SBias.Idx → EReal) : STable.Idx → EReal :=
  fun i => softplus (affine p W b i) + offset

/-- No extended real differs from itself (the comparison that is true of a NaN and of nothing else), in its
    unordered reading … -/
theorem cmp_une_self (x : EReal) : Ideal.cmp .une x x = 0#1 := by simp [Ideal.cmp]
/-- … and in its ordered one. -/
theorem cmp_one_self (x : EReal) : Ideal.cmp .one x x = 0#1 := by simp [Ideal.cmp]

/-- The softplus as the reference spells it, with the exponent `-|x - 0|`. -/
theorem softplus_host (x : EReal) :
    Scalar.select (Ideal.cmp .une (x - Ideal.ofBits .f32 0x00000000#32) (x - Ideal.ofBits .f32 0x00000000#32)) (x + Ideal.ofBits .f32 0x00000000#32)
      (max x (Ideal.ofBits .f32 0x00000000#32) + Ideal.log1p (Ideal.exp (-(max (x - Ideal.ofBits .f32 0x00000000#32) (-(x - Ideal.ofBits .f32 0x00000000#32))))))
      = softplus x := by
  rw [Ideal.ofBits_zero_f32, sub_zero, cmp_une_self, select_zero]
  rfl

/-- The softplus as the kernel's body spells it, with the exponent `0 - |x - 0|`. -/
theorem softplus_body (x : EReal) :
    Scalar.select (Ideal.cmp .one (x - Ideal.ofBits .f32 0x00000000#32) (x - Ideal.ofBits .f32 0x00000000#32)) (x + Ideal.ofBits .f32 0x00000000#32)
      (max x (Ideal.ofBits .f32 0x00000000#32) + Ideal.log1p (Ideal.exp (Ideal.ofBits .f32 0x00000000#32 - (max (x - Ideal.ofBits .f32 0x00000000#32) (-(x - Ideal.ofBits .f32 0x00000000#32))))))
      = softplus x := by
  rw [Ideal.ofBits_zero_f32, sub_zero, cmp_one_self, select_zero, zero_sub]
  rfl

end Cert.DenseHeads

end
-- ==== Proof.RefHeads.lean ====
/-
  The reference's two results, read entry by entry.

  The reference builds the table of aggregated vertex features `p` (a gather of source rows, each scaled by its
  edge's signed weight, summed into the target rows) and then applies the two heads to it with whole-array
  operations: a matrix product with the 64 × 64 weights, the bias broadcast over the rows, and for the second
  head the softplus and the offset. Read at an entry (r, c), the matrix product is `∑ k, p (r, k) · W (k, c)`
  and the broadcast bias is `b c`; so the first result is `DenseHeads.affine p W b` and the second
  `DenseHeads.spread p W b`. The table `p` itself is never opened here: it is the same term of the arguments
  on both sides of the certificate.
-/
import proofs.«169393_j57363583205747_1_alg».proof.Proof.Gen.ReferenceIdeal.Read
import proofs.«169393_j57363583205747_1_alg».proof.Proof.DenseHeads

noncomputable section

open scoped BigOperators

namespace Cert.ReferenceIdeal.Heads

open Cert.ReferenceIdeal Cert.ReferenceIdeal.Gen Cert.ReferenceIdeal.Read Cert.DenseHeads
open Idealize.ShloMosaic Idealize.ShloMosaic.TcCoe Idealize.ShloMosaic.ValueIdx

variable (x0 : (⟨S2x1000000, .i32⟩ : BufTy).Contents (Elt Ideal)) (x1 x2 : (⟨S1000000, .f32⟩ : BufTy).Contents (Elt Ideal))
  (x3 : (⟨S100000x64, .f32⟩ : BufTy).Contents (Elt Ideal))

/-- The aggregated vertex features as the reference computes them: 100000 rows of 64. -/
abbrev table : STable.Idx → EReal := val_main_v17 (F := Ideal) x0 x1 x2 x3

/-- The product's left factor at (r, c), k: the table at (r, k). -/
theorem left_idx (i : S100000x64.Idx) (k : Fin 64) : lidx_main_v18 i k = ix2 (i 0) k :=
  funext fun a => Fin.ext (by match a with | ⟨0, _⟩ => rfl | ⟨1, _⟩ => rfl)
/-- Its right factor: the weights at (k, c). -/
theorem right_idx (i : S100000x64.Idx) (k : Fin 64) : ridx_main_v18 i k = ix2 k (i 1) :=
  funext fun a => Fin.ext (by match a with | ⟨0, _⟩ => rfl | ⟨1, _⟩ => rfl)
theorem left_idx' (i : S100000x64.Idx) (k : Fin 64) : lidx_main_v22 i k = ix2 (i 0) k :=
  funext fun a => Fin.ext (by match a with | ⟨0, _⟩ => rfl | ⟨1, _⟩ => rfl)
theorem right_idx' (i : S100000x64.Idx) (k : Fin 64) : ridx_main_v22 i k = ix2 k (i 1) :=
  funext fun a => Fin.ext (by match a with | ⟨0, _⟩ => rfl | ⟨1, _⟩ => rfl)
/-- The bias row broadcast over the rows reads, at (r, c), the bias at `c`. -/
theorem bias_idx (i : S100000x64.Idx) : idx_main_v19 (idx_main_v20 i) = ix1 (i 1) :=
  funext fun a => Fin.ext (by match a with | ⟨0, _⟩ => rfl)
theorem bias_idx' (i : S100000x64.Idx) : idx_main_v23 (idx_main_v24 i) = ix1 (i 1) :=
  funext fun a => Fin.ext (by match a with | ⟨0, _⟩ => rfl)

/-- The first result is the first head of the table. -/
theorem loc_eq (x4 : (⟨S64x64, .f32⟩ : BufTy).Contents (Elt Ideal)) (x5 : (⟨S64, .f32⟩ : BufTy).Contents (Elt Ideal)) :
    val_main_v21 (F := Ideal) x0 x1 x2 x3 x4 x5 = affine (table x0 x1 x2 x3) x4 x5 := by
  funext i
  rw [val_main_v21_apply, val_main_v18_apply, val_main_v20_apply, val_main_v19_apply, Ideal.addf_def]
  unfold affine affineAt
  refine congrArg₂ (· + ·) (Finset.sum_congr rfl fun k _ => ?_) (congrArg x5 (bias_idx i))
  exact congrArg₂ (· * ·) (congrArg (table x0 x1 x2 x3) (left_idx i k)) (congrArg x4 (right_idx i k))

/-- The second head's argument of the softplus is the same affine map with the second weights and bias. -/
theorem pre_eq (x6 : (⟨S64x64, .f32⟩ : BufTy).Contents (Elt Ideal)) (x7 : (⟨S64, .f32⟩ : BufTy).Contents (Elt Ideal)) (i : S100000x64.Idx) :
    val_main_v25 (F := Ideal) x0 x1 x2 x3 x6 x7 i = affine (table x0 x1 x2 x3) x6 x7 i := by
  rw [val_main_v25_apply, val_main_v22_apply, val_main_v24_apply, val_main_v23_apply, Ideal.addf_def]
  unfold affine affineAt
  refine congrArg₂ (· + ·) (Finset.sum_congr rfl fun k _ => ?_) (congrArg x7 (bias_idx' i))
  exact congrArg₂ (· * ·) (congrArg (table x0 x1 x2 x3) (left_idx' i k)) (congrArg x6 (right_idx' i k))

/-- The reference's softplus and offset over ANY array `a` of pre-activations and any arrays `z0 z2 z5 e` that hold zero,
    zero, zero and the offset at `i`: at that entry it is the host's spelling of the softplus of `a i`, plus the offset. -/
theorem softplus_chain (a z0 z2 z5 e : FVec Ideal S100000x64 .f32) (i : S100000x64.Idx)
    (h0 : z0 i = Ideal.ofBits .f32 0x00000000#32) (h2 : z2 i = Ideal.ofBits .f32 0x00000000#32)
    (h5 : z5 i = Ideal.ofBits .f32 0x00000000#32) (he : e i = offset) :
    addf (select (cmpf .une (subf a z2) (subf a z2)) (addf a z5)
        (addf (maximumf a z0) (Host.log1p (Host.exp (Host.negf (Host.absf (subf a z2))))))) e i
      = softplus (a i) + offset := by
  show Scalar.select (Ideal.cmp .une (a i - z2 i) (a i - z2 i)) (a i + z5 i)
      (max (a i) (z0 i) + Ideal.log1p (Ideal.exp (-(max (a i - z2 i) (-(a i - z2 i)))))) + e i = _
  rw [h0, h2, h5, he, softplus_host]

/-- The second result is the second head of the table. -/
theorem std_eq (x6 : (⟨S64x64, .f32⟩ : BufTy).Contents (Elt Ideal)) (x7 : (⟨S64, .f32⟩ : BufTy).Contents (Elt Ideal)) :
    val_main_v28 (F := Ideal) x0 x1 x2 x3 x6 x7 = spread (table x0 x1 x2 x3) x6 x7 := by
  funext i
  have hpre := pre_eq x0 x1 x2 x3 x6 x7 i
  unfold val_main_v28 val_main_v26 val_main_call0_v4 val_main_call0_v6 val_main_call0_v11 val_main_call0_v1 val_main_call0_v10
    val_main_call0_v9 val_main_call0_v8 val_main_call0_v7 val_main_call0_v3
  generalize val_main_v25 (F := Ideal) x0 x1 x2 x3 x6 x7 = a at hpre ⊢
  refine (softplus_chain a _ _ _ _ i rfl rfl rfl rfl).trans ?_
  rw [hpre]
  unfold spread
  exact rfl

end Cert.ReferenceIdeal.Heads

end
-- ==== Proof.BodyHeads.lean ====
/-
  What one run of the kernel's body computes, read entry by entry.

  The body sees a block `x` of 10000 rows of the table, the two 64 × 64 weight matrices and the two biases as
  1 × 64 rows. It narrows `x` and the weights to bfloat16 (the identity on the extended reals), multiplies on the
  matrix unit into a zero accumulator, adds the bias row broadcast over the block's rows, and for the second output
  applies the softplus and adds the offset. At entry (p, q) of the block the product into zero is
  `∑ k, x (p, k) · w (k, q)` and the broadcast bias is the row's entry `q`.
-/
import proofs.«169393_j57363583205747_1_alg».proof.Proof.Gen.KernelIdeal.Skeleton
import proofs.«169393_j57363583205747_1_alg».proof.Proof.DenseHeads
import Idealize.ShloMosaic.Lib.Pipeline.Value
import Idealize.ShloMosaic.Lib.ValueLayout
import Idealize.ShloMosaic.PureOps.Ideal.Laws

noncomputable section

open scoped BigOperators

namespace Cert.KernelIdeal.Body

open Cert.KernelIdeal Cert.KernelIdeal.Gen Cert.DenseHeads
open Idealize.ShloMosaic Idealize.ShloMosaic.ValueIdx

/-- The product's left index at output row `i 0` keeps that row … -/
theorem lhs_row (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- … and its right index at output column `i 1` keeps that column. -/
theorem rhs_col (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A block times a weight matrix into a zero accumulator, at entry (p, q): the sum over the 64 features of the block's
    row `p` against the weights' column `q`. -/
theorem product_at (x : FVec Ideal S10000x64 .bf16) (w : FVec Ideal S64x64 .bf16) (p : Fin 10000) (q : Fin 64) :
    matmul dot_S10000x64_S64x64_S10000x64_1_0_0_1_n_n none x w (constant S10000x64 .f32 0x00000000#32) (ix2 p q)
      = ∑ k : Fin 64, x (ix2 p k) * w (ix2 k q) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhs_row _ _
    | ⟨1, _⟩ => exact (dot_S10000x64_S64x64_S10000x64_1_0_0_1_n_n.lhsIdx_val_of_single rfl _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (dot_S10000x64_S64x64_S10000x64_1_0_0_1_n_n.rhsIdx_val_of_single rfl _ _).trans hk
    | ⟨1, _⟩ => exact rhs_col _ _)
  rw [el, er]

/-- The pre-activation both outputs share the form of: the block's row against the weights' column, plus the bias
    row's entry. -/
def blockAffineAt (x : Vec Ideal S10000x64 .f32) (w : Vec Ideal S64x64 .f32) (b : Vec Ideal S1x64 .f32) (p : Fin 10000) (q : Fin 64) : EReal :=
  (∑ k : Fin 64, x (ix2 p k) * w (ix2 k q)) + b (ix2 (0 : Fin 1) q)

/-- The first output's block at (p, q). -/
theorem loc_block_at (x : Vec Ideal S10000x64 .f32) (w : Vec Ideal S64x64 .f32) (b : Vec Ideal S1x64 .f32) (p : Fin 10000) (q : Fin 64) :
    k0_pay2 x w b (ix2 p q) = blockAffineAt x w b p q := by
  unfold k0_pay2 k0_pay1 blockAffineAt
  dsimp only
  rw [addf_apply, product_at, broadcastTo_1b_ab_apply, shapeCast_self, shapeCast_self]
  rfl

/-- The second output's block at (p, q) is the body's spelling of the softplus applied to the same form with the
    second weights and bias, plus the offset … -/
theorem std_block_spelt (x : Vec Ideal S10000x64 .f32) (w : Vec Ideal S64x64 .f32) (b : Vec Ideal S1x64 .f32) (p : Fin 10000) (q : Fin 64) :
    k0_pay3 x w b (ix2 p q)
      = Scalar.select (Ideal.cmp .one (k0_pay2 x w b (ix2 p q) - Ideal.ofBits .f32 0x00000000#32) (k0_pay2 x w b (ix2 p q) - Ideal.ofBits .f32 0x00000000#32))
          (k0_pay2 x w b (ix2 p q) + Ideal.ofBits .f32 0x00000000#32)
          (max (k0_pay2 x w b (ix2 p q)) (Ideal.ofBits .f32 0x00000000#32)
            + Ideal.log1p (Ideal.exp (Ideal.ofBits .f32 0x00000000#32
                - (max (k0_pay2 x w b (ix2 p q) - Ideal.ofBits .f32 0x00000000#32) (-(k0_pay2 x w b (ix2 p q) - Ideal.ofBits .f32 0x00000000#32))))))
        + offset := rfl

/-- … which is the softplus of it, plus the offset. -/
theorem std_block_at (x : Vec Ideal S10000x64 .f32) (w : Vec Ideal S64x64 .f32) (b : Vec Ideal S1x64 .f32) (p : Fin 10000) (q : Fin 64) :
    k0_pay3 x w b (ix2 p q) = softplus (blockAffineAt x w b p q) + offset := by
  rw [std_block_spelt, loc_block_at, softplus_body]

end Cert.KernelIdeal.Body

end
-- ==== Proof.KernelHeads.lean ====
/-
  The kernel's two result arrays as whole-array functions of the table, the weights and the biases.

  The grid has ten points. Point `t` is handed rows `10000 t … 10000 t + 9999` of the table of aggregated vertex
  features (built before the launch), both weight matrices whole, and both biases as 1 × 64 rows; it writes the same
  rows of the two results. Row `p` of point `t`'s block is row `10000 t + p` of the table, so what the point writes
  at (p, q) is the dense head at (10000 t + p, q): the block of ONE function of the whole arrays. Every row `r` lies
  in the block of point `r / 10000`, so the ten blocks fill each result, and each result ends as that function:
  `DenseHeads.affine` for the first, `DenseHeads.spread` for the second.
-/
import proofs.«169393_j57363583205747_1_alg».proof.Proof.Gen.KernelIdeal.Value
import proofs.«169393_j57363583205747_1_alg».proof.Proof.BodyHeads
import Idealize.ShloMosaic.Lib.StableHlo.Run

noncomputable section

open scoped BigOperators

namespace Cert.KernelIdeal.Heads

open Cert.KernelIdeal Cert.KernelIdeal.Gen Cert.DenseHeads
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- Where each operand's block sits at point `t`: the table's and the two results' at row block `t`, the weights and
    the bias rows always at the origin (decided over the ten points). -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## The operands as the launch finds them -/

/-- The first bias reaches the kernel as its 64 entries laid out in one row … -/
theorem bias_row (c : Dev nD) :
    (V m c main_v18 : S1x64.Idx → EReal) = shapeCast S1x64 (m ((c : Thread nD τ).loc main_arg5)) shapeCasts_S64_S1x64 := by
  dsimp only [V, hostOps0]; after_results; rfl
/-- … and so does the second. -/
theorem bias_row' (c : Dev nD) :
    (V m c main_v19 : S1x64.Idx → EReal) = shapeCast S1x64 (m ((c : Thread nD τ).loc main_arg7)) shapeCasts_S64_S1x64 := by
  dsimp only [V, hostOps0]; after_results; rfl

/-! ## A point's blocks, read off ANY contents of the staged arrays

  Stated over arbitrary contents `A`, so that nothing here depends on how the table was built. -/

/-- Row `p` of point `t`'s block of the table's array is the array's row `10000 t + p`. -/
theorem table_read (c : Dev nD) (A : Buf (Elt Ideal) ((c : Thread nD τ).loc main_v17)) (t : Fin cfg0.N) (p : Fin 10000) (k : Fin 64)
    (r : Fin 100000) (hr : r.val = t.val * 10000 + p.val) :
    ((cfg0.win 0).blk t).view.read (Elt Ideal) A (ix2 p k) = A (ix2 r k) := by
  obtain ⟨e0, e1, -⟩ := block_index t
  show A (((cfg0.win 0).blk t).view.emb (ix2 p k)) = A (ix2 r k)
  refine congrArg A (funext fun a => Fin.ext ?_)
  match a with
  | ⟨0, _⟩ => show win0_0.index t (0 : Fin 2) * 10000 + 1 * p.val = r.val; omega
  | ⟨1, _⟩ => show win0_0.index t (1 : Fin 2) * 64 + 1 * k.val = k.val; omega

/-- Every point's block of a weight matrix is the matrix … -/
theorem weight_read (c : Dev nD) (A : Buf (Elt Ideal) ((c : Thread nD τ).loc main_arg4)) (t : Fin cfg0.N) (k q : Fin 64) :
    ((cfg0.win 1).blk t).view.read (Elt Ideal) A (ix2 k q) = A (ix2 k q) := by
  obtain ⟨-, -, e0, e1, -⟩ := block_index t
  show A (((cfg0.win 1).blk t).view.emb (ix2 k q)) = A (ix2 k q)
  refine congrArg A (funext fun a => Fin.ext ?_)
  match a with
  | ⟨0, _⟩ => show win0_1.index t (0 : Fin 2) * 64 + 1 * k.val = k.val; omega
  | ⟨1, _⟩ => show win0_1.index t (1 : Fin 2) * 64 + 1 * q.val = q.val; omega
theorem weight_read' (c : Dev nD) (A : Buf (Elt Ideal) ((c : Thread nD τ).loc main_arg6)) (t : Fin cfg0.N) (k q : Fin 64) :
    ((cfg0.win 3).blk t).view.read (Elt Ideal) A (ix2 k q) = A (ix2 k q) := by
  obtain ⟨-, -, -, -, -, -, e0, e1, -⟩ := block_index t
  show A (((cfg0.win 3).blk t).view.emb (ix2 k q)) = A (ix2 k q)
  refine congrArg A (funext fun a => Fin.ext ?_)
  match a with
  | ⟨0, _⟩ => show win0_3.index t (0 : Fin 2) * 64 + 1 * k.val = k.val; omega
  | ⟨1, _⟩ => show win0_3.index t (1 : Fin 2) * 64 + 1 * q.val = q.val; omega

/-- … and its block of a bias row is the row. -/
theorem bias_read (c : Dev nD) (A : Buf (Elt Ideal) ((c : Thread nD τ).loc main_v18)) (t : Fin cfg0.N) (q : Fin 64) :
    ((cfg0.win 2).blk t).view.read (Elt Ideal) A (ix2 (0 : Fin 1) q) = A (ix2 (0 : Fin 1) q) := by
  obtain ⟨-, -, -, -, e0, e1, -⟩ := block_index t
  show A (((cfg0.win 2).blk t).view.emb (ix2 (0 : Fin 1) q)) = A (ix2 (0 : Fin 1) q)
  refine congrArg A (funext fun a => Fin.ext ?_)
  match a with
  | ⟨0, _⟩ => show win0_2.index t (0 : Fin 2) * 1 + 1 * 0 = 0; omega
  | ⟨1, _⟩ => show win0_2.index t (1 : Fin 2) * 64 + 1 * q.val = q.val; omega
theorem bias_read' (c : Dev nD) (A : Buf (Elt Ideal) ((c : Thread nD τ).loc main_v19)) (t : Fin cfg0.N) (q : Fin 64) :
    ((cfg0.win 4).blk t).view.read (Elt Ideal) A (ix2 (0 : Fin 1) q) = A (ix2 (0 : Fin 1) q) := by
  obtain ⟨-, -, -, -, -, -, -, -, e0, e1, -⟩ := block_index t
  show A (((cfg0.win 4).blk t).view.emb (ix2 (0 : Fin 1) q)) = A (ix2 (0 : Fin 1) q)
  refine congrArg A (funext fun a => Fin.ext ?_)
  match a with
  | ⟨0, _⟩ => show win0_4.index t (0 : Fin 2) * 1 + 1 * 0 = 0; omega
  | ⟨1, _⟩ => show win0_4.index t (1 : Fin 2) * 64 + 1 * q.val = q.val; omega

/-- A block `X` of 10000 rows that agrees, row `p` with row `10000 t + p`, with a whole array `G` is point `t`'s block
    of `G` in the first result's window … -/
theorem block_of (t : Fin cfg0.N) (X : Vec Ideal S10000x64 .f32) (G : STable.Idx → EReal)
    (h : ∀ (p : Fin 10000) (q : Fin 64) (r : Fin 100000), r.val = t.val * 10000 + p.val → X (ix2 p q) = G (ix2 r q)) :
    (cfg0.win 5).cut (grid0.coords t) X = ((cfg0.win 5).blk t).view.read (Elt Ideal) G := by
  obtain ⟨-, -, -, -, -, -, -, -, -, -, e0, e1, -⟩ := block_index t
  have hN : cfg0.N = 10 := N_0
  have ht : t.val < 10 := hN ▸ t.isLt
  funext j
  have hj0 : (j 0).val < 10000 := (j 0).isLt
  have hj1 : (j 1).val < 64 := (j 1).isLt
  have hx : (cfg0.win 5).cut (grid0.coords t) X j = X (ix2 ⟨(j 0).val, hj0⟩ ⟨(j 1).val, hj1⟩) :=
    congrArg X (funext fun a => Fin.ext (by match a with | ⟨0, _⟩ => rfl | ⟨1, _⟩ => rfl))
  have hg : ((cfg0.win 5).blk t).view.read (Elt Ideal) G j = G (ix2 ⟨t.val * 10000 + (j 0).val, by omega⟩ ⟨(j 1).val, hj1⟩) := by
    show G (((cfg0.win 5).blk t).view.emb j) = _
    refine congrArg G (funext fun a => Fin.ext ?_)
    match a with
    | ⟨0, _⟩ => show win0_5.index t (0 : Fin 2) * 10000 + 1 * (j 0).val = t.val * 10000 + (j 0).val; omega
    | ⟨1, _⟩ => show win0_5.index t (1 : Fin 2) * 64 + 1 * (j 1).val = (j 1).val; omega
  rw [hx, hg]
  exact h _ _ _ rfl
/-- … and in the second's. -/
theorem block_of' (t : Fin cfg0.N) (X : Vec Ideal S10000x64 .f32) (G : STable.Idx → EReal)
    (h : ∀ (p : Fin 10000) (q : Fin 64) (r : Fin 100000), r.val = t.val * 10000 + p.val → X (ix2 p q) = G (ix2 r q)) :
    (cfg0.win 6).cut (grid0.coords t) X = ((cfg0.win 6).blk t).view.read (Elt Ideal) G := by
  obtain ⟨-, -, -, -, -, -, -, -, -, -, -, -, e0, e1⟩ := block_index t
  have hN : cfg0.N = 10 := N_0
  have ht : t.val < 10 := hN ▸ t.isLt
  funext j
  have hj0 : (j 0).val < 10000 := (j 0).isLt
  have hj1 : (j 1).val < 64 := (j 1).isLt
  have hx : (cfg0.win 6).cut (grid0.coords t) X j = X (ix2 ⟨(j 0).val, hj0⟩ ⟨(j 1).val, hj1⟩) :=
    congrArg X (funext fun a => Fin.ext (by match a with | ⟨0, _⟩ => rfl | ⟨1, _⟩ => rfl))
  have hg : ((cfg0.win 6).blk t).view.read (Elt Ideal) G j = G (ix2 ⟨t.val * 10000 + (j 0).val, by omega⟩ ⟨(j 1).val, hj1⟩) := by
    show G (((cfg0.win 6).blk t).view.emb j) = _
    refine congrArg G (funext fun a => Fin.ext ?_)
    match a with
    | ⟨0, _⟩ => show win0_6.index t (0 : Fin 2) * 10000 + 1 * (j 0).val = t.val * 10000 + (j 0).val; omega
    | ⟨1, _⟩ => show win0_6.index t (1 : Fin 2) * 64 + 1 * (j 1).val = (j 1).val; omega
  rw [hx, hg]
  exact h _ _ _ rfl

/-- The body's one store into each output buffer covers it: what the buffer holds is the stored value. -/
theorem out_loc (x0 : Vec Ideal S10000x64 .f32) (x1 : Vec Ideal S64x64 .f32) (x2 : Vec Ideal S1x64 .f32) (x3 : Vec Ideal S64x64 .f32) (x4 : Vec Ideal S1x64 .f32) :
    out0_5 x0 x1 x2 x3 x4 = k0_pay2 x0 x1 x2 := by
  unfold out0_5
  rw [View.canon_unit_zero origin]
  simp only [View.ld_unit_zero (S := S10000x64) origin, View.ld_unit_zero (S := S64x64) origin, View.ld_unit_zero (S := S1x64) origin]
theorem out_std (x0 : Vec Ideal S10000x64 .f32) (x1 : Vec Ideal S64x64 .f32) (x2 : Vec Ideal S1x64 .f32) (x3 : Vec Ideal S64x64 .f32) (x4 : Vec Ideal S1x64 .f32) :
    out0_6 x0 x1 x2 x3 x4 = k0_pay3 x0 x3 x4 := by
  unfold out0_6
  rw [View.canon_unit_zero origin]
  simp only [View.ld_unit_zero (S := S10000x64) origin, View.ld_unit_zero (S := S64x64) origin, View.ld_unit_zero (S := S1x64) origin]

/-! ## The blocks a point is handed, from the arrays the launch finds -/

/-- Row `p` of point `t`'s table block is row `10000 t + p` of the table. -/
theorem table_block (c : Dev nD) (t : Fin cfg0.N) (p : Fin 10000) (k : Fin 64) (r : Fin 100000) (hr : r.val = t.val * 10000 + p.val) :
    iblk m c 0 t (ix2 p k) = V m c main_v17 (ix2 r k) := by
  unfold iblk
  exact table_read c (V m c main_v17) t p k r hr

/-- Every point sees the first weight matrix whole … -/
theorem weight_block (c : Dev nD) (t : Fin cfg0.N) (k q : Fin 64) :
    iblk m c 1 t (ix2 k q) = m ((c : Thread nD τ).loc main_arg4) (ix2 k q) := by
  unfold iblk
  exact (weight_read c (V m c main_arg4) t k q).trans (congrFun (V_main_arg4 m c) (ix2 k q))
/-- … and the second. -/
theorem weight_block' (c : Dev nD) (t : Fin cfg0.N) (k q : Fin 64) :
    iblk m c 3 t (ix2 k q) = m ((c : Thread nD τ).loc main_arg6) (ix2 k q) := by
  unfold iblk
  exact (weight_read' c (V m c main_arg6) t k q).trans (congrFun (V_main_arg6 m c) (ix2 k q))

/-- Every point sees the first bias row, whose entry `q` is the bias at `q` … -/
theorem bias_block (c : Dev nD) (t : Fin cfg0.N) (q : Fin 64) :
    iblk m c 2 t (ix2 (0 : Fin 1) q) = m ((c : Thread nD τ).loc main_arg5) (ix1 q) := by
  unfold iblk
  exact (bias_read c (V m c main_v18) t q).trans
    ((congrFun (bias_row m c) (ix2 (0 : Fin 1) q)).trans (shapeCast_a_1a_apply _ _ (0 : Fin 1) q))
/-- … and the second. -/
theorem bias_block' (c : Dev nD) (t : Fin cfg0.N) (q : Fin 64) :
    iblk m c 4 t (ix2 (0 : Fin 1) q) = m ((c : Thread nD τ).loc main_arg7) (ix1 q) := by
  unfold iblk
  exact (bias_read' c (V m c main_v19) t q).trans
    ((congrFun (bias_row' m c) (ix2 (0 : Fin 1) q)).trans (shapeCast_a_1a_apply _ _ (0 : Fin 1) q))

/-! ## One point's block of each result -/

/-- What a point computes at (p, q) from its blocks is the dense pre-activation at row `10000 t + p`. -/
theorem block_affine (c : Dev nD) (t : Fin cfg0.N) (p : Fin 10000) (q : Fin 64) (r : Fin 100000) (hr : r.val = t.val * 10000 + p.val) :
    Body.blockAffineAt (iblk m c 0 t) (iblk m c 1 t) (iblk m c 2 t) p q
      = affineAt (V m c main_v17) (m ((c : Thread nD τ).loc main_arg4)) (m ((c : Thread nD τ).loc main_arg5)) r q := by
  unfold Body.blockAffineAt affineAt
  refine congrArg₂ (· + ·) (Finset.sum_congr rfl fun k _ => ?_) (bias_block m c t q)
  exact congrArg₂ (· * ·) (table_block m c t p k r hr) (weight_block m c t k q)

theorem block_affine' (c : Dev nD) (t : Fin cfg0.N) (p : Fin 10000) (q : Fin 64) (r : Fin 100000) (hr : r.val = t.val * 10000 + p.val) :
    Body.blockAffineAt (iblk m c 0 t) (iblk m c 3 t) (iblk m c 4 t) p q
      = affineAt (V m c main_v17) (m ((c : Thread nD τ).loc main_arg6)) (m ((c : Thread nD τ).loc main_arg7)) r q := by
  unfold Body.blockAffineAt affineAt
  refine congrArg₂ (· + ·) (Finset.sum_congr rfl fun k _ => ?_) (bias_block' m c t q)
  exact congrArg₂ (· * ·) (table_block m c t p k r hr) (weight_block' m c t k q)

/-- The first result as one function of the whole arrays. -/
abbrev locOf (c : Dev nD) : STable.Idx → EReal :=
  affine (V m c main_v17) (m ((c : Thread nD τ).loc main_arg4)) (m ((c : Thread nD τ).loc main_arg5))
/-- The second. -/
abbrev stdOf (c : Dev nD) : STable.Idx → EReal :=
  spread (V m c main_v17) (m ((c : Thread nD τ).loc main_arg6)) (m ((c : Thread nD τ).loc main_arg7))

/-- What point `t` writes back to the first result is block `t` of `locOf`. -/
theorem loc_flushed (c : Dev nD) (t : Fin cfg0.N) :
    (dats m 0 c).flushed 5 t = ((cfg0.win 5).blk t).view.read (Elt Ideal) (locOf m c) := by
  rw [Value.flushed5, out_loc]
  refine block_of t _ _ fun p q r hr => ?_
  exact (Body.loc_block_at (iblk m c 0 t) (iblk m c 1 t) (iblk m c 2 t) p q).trans (block_affine m c t p q r hr)

/-- What point `t` writes back to the second result is block `t` of `stdOf`. -/
theorem std_flushed (c : Dev nD) (t : Fin cfg0.N) :
    (dats m 0 c).flushed 6 t = ((cfg0.win 6).blk t).view.read (Elt Ideal) (stdOf m c) := by
  rw [Value.flushed6, out_std]
  refine block_of' t _ _ fun p q r hr => ?_
  refine (Body.std_block_at (iblk m c 0 t) (iblk m c 3 t) (iblk m c 4 t) p q).trans ?_
  exact congrArg (fun a => softplus a + offset) (block_affine' m c t p q r hr)

/-! ## The ten blocks fill each result -/

theorem mem_block (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v20_0).slice (win0_5.rect t)).set ↔ _
  rw [View.set_slice_whole, Rect.mem_set_unit]
  exact Iff.rfl
theorem mem_block' (t : Fin cfg0.N) (i : S100000x64.Idx) :
    i ∈ ((cfg0.win 6).blk t).view.set ↔ ∀ a : Fin 2, win0_6.index t a * S10000x64.size a ≤ (i a).val ∧ (i a).val < win0_6.index t a * S10000x64.size a + S10000x64.size a := by
  show i ∈ ((View.whole main_v20_1).slice (win0_6.rect t)).set ↔ _
  rw [View.set_slice_whole, Rect.mem_set_unit]
  exact Iff.rfl

/-- Row `r` of the first result lies in the block of point `r / 10000`. -/
theorem loc_cover (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨-, -, -, -, -, -, -, -, -, -, e0, e1, -⟩ := block_index t
  refine ⟨t, flush0_5 t, ?_⟩
  rw [mem_block]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 64 ≤ (i 1).val ∧ (i 1).val < win0_5.index t (1 : Fin 2) * 64 + 64; omega
/-- And of the second. -/
theorem std_cover (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨-, -, -, -, -, -, -, -, -, -, -, -, e0, e1⟩ := block_index t
  refine ⟨t, flush0_6 t, ?_⟩
  rw [mem_block']
  intro a
  match a with
  | ⟨0, _⟩ => show win0_6.index t (0 : Fin 2) * 10000 ≤ (i 0).val ∧ (i 0).val < win0_6.index t (0 : Fin 2) * 10000 + 10000; omega
  | ⟨1, _⟩ => show win0_6.index t (1 : Fin 2) * 64 ≤ (i 1).val ∧ (i 1).val < win0_6.index t (1 : Fin 2) * 64 + 64; omega

/-- The first result after the run. -/
theorem loc_final (c : Dev nD) : (dats m 0 c).arrAt 5 cfg0.N = locOf m c :=
  (dats m 0 c).arrAt_eq_of_cover 5 (locOf m c) (fun t _ => loc_flushed m c t) loc_cover
/-- The second result after the run. -/
theorem std_final (c : Dev nD) : (dats m 0 c).arrAt 6 cfg0.N = stdOf m c :=
  (dats m 0 c).arrAt_eq_of_cover 6 (stdOf m c) (fun t _ => std_flushed m c t) std_cover

/-- Every fair execution of the kernel's program ends with the two results at the two heads of the table it built, the
    arguments as they were. -/
theorem run : θ_run defs (onTc (τ := τ) (main (F := Ideal))) ⟨m, fun _ => 0, ρ⟩ fun r => ∀ c : Dev nD,
      r.2.mem ((c : Thread nD τ).loc main_v20_0) = locOf m c
      ∧ r.2.mem ((c : Thread nD τ).loc main_v20_1) = stdOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (loc_final m c), (h c).2.1.trans (std_final m c), (h c).2.2⟩)
    (Value.run_blocks m ρ)

end Cert.KernelIdeal.Heads

end
-- ==== Proof.lean ====
/-
  The kernel and its reference compute the same two arrays on the extended reals.

  Both programs first build, with the same whole-array operations on the same arguments, a table `p` of
  aggregated vertex features: for every edge the source vertex's row of `vrepr` scaled by `esgn · enorm`, summed into the
  target vertex's row. Both then apply two dense heads to it: `loc = p · W_loc + b_loc` and
  `std = softplus (p · W_std + b_std) + 10⁻⁷`. The reference does this with one matrix product over all 100000 rows; the
  kernel does it in ten blocks of 10000 rows, each on the matrix unit, after narrowing its operands to bfloat16 — which is the
  identity on the extended reals — and accumulating into zero. Entry by entry both are
  `∑ k, p (r, k) · W (k, c) + b c` (`DenseHeads.affine`), and the two spellings of the softplus agree at every extended
  real (`DenseHeads.softplus_host`, `softplus_body`). No sum is regrouped and nothing is cancelled, so the finiteness of the
  inputs is never used.

  The table is never opened: `table_eq` says that the array the kernel's launch finds is the very term of the arguments
  the reference's operations compose.
-/
import proofs.«169393_j57363583205747_1_alg».proof.Defs
import proofs.«169393_j57363583205747_1_alg».proof.Proof.Gen.Kernel
import proofs.«169393_j57363583205747_1_alg».proof.Proof.Gen.Kernel.Skeleton
import proofs.«169393_j57363583205747_1_alg».proof.Proof.Gen.Kernel.Launch
import proofs.«169393_j57363583205747_1_alg».proof.Proof.Gen.Kernel.Points
import proofs.«169393_j57363583205747_1_alg».proof.Proof.Gen.Kernel.Frame
import proofs.«169393_j57363583205747_1_alg».proof.Proof.Gen.KernelIdeal
import proofs.«169393_j57363583205747_1_alg».proof.Proof.Gen.KernelIdeal.Skeleton
import proofs.«169393_j57363583205747_1_alg».proof.Proof.Gen.KernelIdeal.Launch
import proofs.«169393_j57363583205747_1_alg».proof.Proof.Gen.KernelIdeal.Points
import proofs.«169393_j57363583205747_1_alg».proof.Proof.Gen.KernelIdeal.Frame
import proofs.«169393_j57363583205747_1_alg».proof.Proof.Gen.ReferenceIdeal
import proofs.«169393_j57363583205747_1_alg».proof.Proof.Gen.Pre_finite_inputs
import proofs.«169393_j57363583205747_1_alg».proof.Proof.Gen.KernelIdeal.Value
import proofs.«169393_j57363583205747_1_alg».proof.Proof.Gen.ReferenceIdeal.Run
import proofs.«169393_j57363583205747_1_alg».proof.Proof.Gen.ReferenceIdeal.Read
import proofs.«169393_j57363583205747_1_alg».proof.Proof.RefHeads
import proofs.«169393_j57363583205747_1_alg».proof.Proof.KernelHeads
import Idealize.ShloMosaic.Adequacy
import Idealize.ShloMosaic.Init
import Idealize.ShloMosaic.Lib.StableHlo.Run

noncomputable section

namespace Cert.Proof

open Idealize.ShloMosaic Idealize.ShloMosaic.TcCoe Idealize.SL.Sem

/-- The table the kernel's launch finds is the reference's table of the same arguments: the same gather, scaling and
    scatter-add, composed in the same way. -/
theorem table_eq (m : (ℓ : Loc Cert.KernelIdeal.nD Cert.KernelIdeal.τ Cert.KernelIdeal.sig) → Buf (Elt Ideal) ℓ) (c : Dev Cert.KernelIdeal.nD) :
    (Cert.KernelIdeal.Gen.V m c Cert.KernelIdeal.main_v17 : Cert.DenseHeads.STable.Idx → EReal)
      = Cert.ReferenceIdeal.Heads.table
          (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3)) := by
  dsimp only [Cert.KernelIdeal.Gen.V, Cert.KernelIdeal.Gen.hostOps0]; after_results_simp <;> rfl

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing in the kernel. -/
theorem preserves : Cert.preserves_Kernel_KernelIdeal := trivial

/-- Both programs end with `loc` and `std` at the two dense heads of the one table. -/
theorem algebraic : Cert.algebraic_KernelIdeal_ReferenceIdeal := by
  intro m ρ m' ρ' _ hagree
  refine ⟨fun c => Cert.KernelIdeal.Heads.locOf m c, fun c => Cert.KernelIdeal.Heads.stdOf m c, Cert.KernelIdeal.Heads.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, -⟩ := hagree c
    rw [Cert.ReferenceIdeal.Read.val_main_v21_eq, Cert.ReferenceIdeal.Heads.loc_eq, a0, a1, a2, a3, a4, a5]
    exact congrArg (fun T => Cert.DenseHeads.affine T _ _) (table_eq m c).symm
  · obtain ⟨a0, a1, a2, a3, -, -, a6, a7⟩ := hagree c
    rw [Cert.ReferenceIdeal.Read.val_main_v28_eq, Cert.ReferenceIdeal.Heads.std_eq, a0, a1, a2, a3, a6, a7]
    exact congrArg (fun T => Cert.DenseHeads.spread T _ _) (table_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
